-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S8192x4096, .bf16⟩
  | .hbm, ⟨7, _⟩ => ⟨S1x4096, .f32⟩
  | .hbm, ⟨8, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one run of the kernel body leaves behind, case by case, as values.

  The body keeps a [2048, 1024] accumulator in a scratch buffer across the eight reduction steps of one output tile:
    * at the first step (k = 0) it stores the zero tile, reads it back, and stores  zero + a · wᵀ;
    * at a middle step it stores  acc + a · wᵀ  over the accumulator `acc` the step before left;
    * at the last step (k = 7) it does the same and then stores  (acc + a · wᵀ) + bias  into the output tile.
  Each store covers its whole buffer, so what a buffer holds afterwards is the payload of the last store into it, with
  every load read as the contents of the buffer it reads (for the accumulator: the value stored just before).
-/
import proofs.«124118_j6914897347207_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of every access of the body: the origin. -/
theorem origin : (![0, 0] : Fin 2 → Nat) = fun _ => 0 := funext fun a => by fin_cases a <;> rfl

/-- First step of a tile: the accumulator ends at `zero + a · wᵀ` — the zero tile is stored, read back, and the product
    of the two input blocks added to it. -/
theorem acc_first (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : cond0_0 i) (hc1 : ¬cond0_1 i)
    (x0 : Vec F S2048x512 .bf16) (x1 : Vec F S1024x512 .bf16) (x2 : Vec F S1x1024 .f32) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) origin, View.readCov_unit_zero (S := S2048x1024) _ origin]
  simp only [View.readAt_eq_ld, h3.read_unread, h4.read_unread, View.ld_unit_zero (S := S2048x1024) origin,
    View.ld_unit_zero (S := S2048x512) origin, View.ld_unit_zero (S := S1024x512) origin]

/-- A middle step: the accumulator ends at `acc + a · wᵀ` over what the step before left in it. -/
theorem acc_middle (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : ¬cond0_1 i)
    (x0 : Vec F S2048x512 .bf16) (x1 : Vec F S1024x512 .bf16) (x2 : Vec F S1x1024 .f32) (xs0 : Vec F S2048x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero origin]
  simp only [View.readAt_eq_ld, h3.read_unread, h4.read_unread, h7.read_unread, View.ld_unit_zero (S := S2048x1024) origin,
    View.ld_unit_zero (S := S2048x512) origin, View.ld_unit_zero (S := S1024x512) origin]

/-- The last step: the output tile ends at `(acc + a · wᵀ) + bias`, the bias row added to every row. -/
theorem out_last (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .bf16) (x1 : Vec F S1024x512 .bf16) (x2 : Vec F S1x1024 .f32) (xs0 : Vec F S2048x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin, View.readCov_unit_zero (S := S2048x1024) _ origin]
  simp only [View.readAt_eq_ld, h3.read_unread, h4.read_unread, h5.read_unread, h7.read_unread,
    View.ld_unit_zero (S := S2048x1024) origin, View.ld_unit_zero (S := S2048x512) origin,
    View.ld_unit_zero (S := S1024x512) origin, View.ld_unit_zero (S := S1x1024) origin]

end Cert.KernelIdeal.Pieces

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.Payload.lean ====
/-
  The three values the kernel body stores, read at an entry (p, q) of the [2048, 1024] tile, on the extended reals:
    * the reset value is 0;
    * an accumulation step stores  acc(p, q) + Σ_{l < 512} a(p, l) · w(q, l)  — the product of the [2048, 512] block `a`
      with the transpose of the [1024, 512] block `w`, taken into a zero accumulator, then added to `acc`;
    * the epilogue stores  acc(p, q) + bias(0, q)  — the one bias row added to every row.
  The casts of a tile to its own shape are the identity.
-/
import proofs.«124118_j6914897347207_2_alg».proof.Proof.Gen.KernelIdeal.Skeleton
import proofs.«124118_j6914897347207_2_alg».proof.Proof.LibMatmulNT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The reset value is zero at every entry. -/
theorem reset_apply (j : S2048x1024.Idx) : k0_pay1 (F := Ideal) j = 0 := by
  unfold k0_pay1
  simp only [shapeCast_self]
  exact Ideal.ofBits_zero_f32

/-- An accumulation step at entry (p, q): the accumulator's entry plus the inner product of row `p` of `a` with row `q`
    of `w`. -/
theorem step_apply (acc : Vec Ideal S2048x1024 .f32) (a : Vec Ideal S2048x512 .bf16) (w : Vec Ideal S1024x512 .bf16)
    (p : Fin 2048) (q : Fin 1024) :
    k0_pay2 acc a w (ix2 p q) = acc (ix2 p q) + ∑ l : Fin 512, a (ix2 p l) * w (ix2 q l) := by
  unfold k0_pay2
  simp only [shapeCast_self]
  show acc (ix2 p q) + _ = _
  congr 1
  exact Cert.Gram.matmul_nt_zero_apply dot_S2048x512_S1024x512_S2048x1024_1_1_0_0_n_n_wf none a w p q

/-- The epilogue at entry (p, q): the accumulator's entry plus the bias row's entry `q`. -/
theorem bias_apply (acc : Vec Ideal S2048x1024 .f32) (b : Vec Ideal S1x1024 .f32) (p : Fin 2048) (q : Fin 1024) :
    k0_pay3 acc b (ix2 p q) = acc (ix2 p q) + b (ix2 (0 : Fin 1) q) := by
  unfold k0_pay3
  simp only [shapeCast_self]
  show acc (ix2 p q) + _ = _
  congr 1
  exact broadcastTo_1b_ab_apply b broadcasts_S1x1024_S2048x1024 p q

end Cert.KernelIdeal.Payload

end
-- ==== Proof.Blocks.lean ====
/-
  Where the tiles of the launch sit in the arrays, and what the arrays hold when the launch begins.

  The grid has 4 · 4 · 8 points; point `t` is (i, j, k) = (t / 32, t / 8 mod 4, t mod 8). At that point
    * the input tile is rows 2048·i … of the input and columns 512·k …;
    * the weight tile is rows 1024·j … of the masked weight and columns 512·k …;
    * the bias tile is columns 1024·j … of the bias row;
    * the output tile is rows 2048·i … and columns 1024·j … of the result.
  Before the launch the host forms the masked weight `W · M` entry by entry, narrows it and the input to a shorter float
  format — on the extended reals a change of format is the identity — and views the bias vector as one row.
-/
import proofs.«124118_j6914897347207_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx

/-- The tile indices at point `t` = (i, j, k): (i, k) for the input, (j, k) for the weight, (0, j) for the bias,
    (i, j) for the output — decided over the 128 points. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

section AnyFloat

variable {F : FTy → Type} [FloatOps F]
variable (m : (ℓ : Loc nD τ sig) → Buf (Elt F) ℓ)

/-- Entry (p, l) of the input tile at point `t` is entry (2048·i + p, 512·k + l) of the narrowed input. -/
theorem a_block (c : Dev nD) (t : Fin cfg0.N) (p : Fin 2048) (l : Fin 512) (r : Fin 8192) (k : Fin 4096)
    (hr : r.val = 2048 * (t.val / 32) + p.val) (hk : k.val = 512 * (t.val % 8) + l.val) :
    (iblk m c 0 t : Vec F S2048x512 .bf16) (ix2 p l) = V m c main_v2 (ix2 r k) := by
  obtain ⟨e0, e1, -⟩ := index_facts t
  unfold iblk
  rw [View.read_apply]
  show V m c main_v2 _ = V m c main_v2 _
  congr 1
  funext a
  apply Fin.ext
  match a with
  | ⟨0, _⟩ => show win0_0.index t (0 : Fin 2) * 2048 + 1 * p.val = r.val; omega
  | ⟨1, _⟩ => show win0_0.index t (1 : Fin 2) * 512 + 1 * l.val = k.val; omega

/-- Entry (q, l) of the weight tile at point `t` is entry (1024·j + q, 512·k + l) of the narrowed masked weight. -/
theorem w_block (c : Dev nD) (t : Fin cfg0.N) (q : Fin 1024) (l : Fin 512) (n : Fin 4096) (k : Fin 4096)
    (hn : n.val = 1024 * (t.val / 8 % 4) + q.val) (hk : k.val = 512 * (t.val % 8) + l.val) :
    (iblk m c 1 t : Vec F S1024x512 .bf16) (ix2 q l) = V m c main_v1 (ix2 n k) := by
  obtain ⟨-, -, e0, e1, -⟩ := index_facts t
  unfold iblk
  rw [View.read_apply]
  show V m c main_v1 _ = V m c main_v1 _
  congr 1
  funext a
  apply Fin.ext
  match a with
  | ⟨0, _⟩ => show win0_1.index t (0 : Fin 2) * 1024 + 1 * q.val = n.val; omega
  | ⟨1, _⟩ => show win0_1.index t (1 : Fin 2) * 512 + 1 * l.val = k.val; omega

/-- Entry (0, q) of the bias tile at point `t` is entry (0, 1024·j + q) of the bias row. -/
theorem b_block (c : Dev nD) (t : Fin cfg0.N) (q : Fin 1024) (n : Fin 4096)
    (hn : n.val = 1024 * (t.val / 8 % 4) + q.val) :
    (iblk m c 2 t : Vec F S1x1024 .f32) (ix2 (0 : Fin 1) q) = V m c main_v3 (ix2 (0 : Fin 1) n) := by
  obtain ⟨-, -, -, -, e0, e1, -⟩ := index_facts t
  unfold iblk
  rw [View.read_apply]
  show V m c main_v3 _ = V m c main_v3 _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = n.val; omega

/-- Entry (p, q) of the output tile at point `t` is entry (2048·i + p, 1024·j + q) of the result. -/
theorem out_entry (t : Fin cfg0.N) (p : Fin 2048) (q : Fin 1024) (r : Fin 8192) (n : Fin 4096)
    (hr : r.val = 2048 * (t.val / 32) + p.val) (hn : n.val = 1024 * (t.val / 8 % 4) + q.val) :
    ((cfg0.win 3).blk t).view.emb (ix2 p q) = ix2 r n := by
  obtain ⟨-, -, -, -, -, -, e0, e1⟩ := index_facts t
  funext a
  apply Fin.ext
  match a with
  | ⟨0, _⟩ => show win0_3.index t (0 : Fin 2) * 2048 + 1 * p.val = r.val; omega
  | ⟨1, _⟩ => show win0_3.index t (1 : Fin 2) * 1024 + 1 * q.val = n.val; omega

/-- When the launch begins the first operand holds the input, narrowed. -/
theorem input_array (c : Dev nD) : (V m c main_v2 : S8192x4096.Idx → Elt F .bf16)
    = truncf .bf16 (m ((c : Thread nD τ).loc main_arg0)) bitsLt_bf16_f32 := by
  dsimp only [V, hostOps0]; after_results

/-- The second operand holds the weight times the mask, entry by entry, narrowed. -/
theorem weight_array (c : Dev nD) : (V m c main_v1 : S4096x4096.Idx → Elt F .bf16)
    = truncf .bf16 (mulf (m ((c : Thread nD τ).loc main_arg1)) (m ((c : Thread nD τ).loc main_arg3))) bitsLt_bf16_f32 := by
  dsimp only [V, hostOps0]; after_results

/-- The third operand holds the bias vector viewed as one row. -/
theorem bias_array (c : Dev nD) : (V m c main_v3 : S1x4096.Idx → Elt F .f32)
    = shapeCast S1x4096 (m ((c : Thread nD τ).loc main_arg2)) shapeCasts_S4096_S1x4096 := by
  dsimp only [V, hostOps0]; after_results; rfl

end AnyFloat

/-! ## On the extended reals -/

variable (m : (ℓ : Loc nD τ sig) → Buf (Elt Ideal) ℓ)

/-- The four arguments as arrays of extended reals: the input `A`, the weight `W`, the mask `M`, the bias `b`. -/
abbrev argA (c : Dev nD) : S8192x4096.Idx → EReal := m ((c : Thread nD τ).loc main_arg0)
abbrev argW (c : Dev nD) : S4096x4096.Idx → EReal := m ((c : Thread nD τ).loc main_arg1)
abbrev argM (c : Dev nD) : S4096x4096.Idx → EReal := m ((c : Thread nD τ).loc main_arg3)
abbrev argB (c : Dev nD) : S4096.Idx → EReal := m ((c : Thread nD τ).loc main_arg2)

/-- The three input tiles at point `t`, as arrays of extended reals. -/
abbrev tileA (c : Dev nD) (t : Fin cfg0.N) : S2048x512.Idx → EReal := iblk m c 0 t
abbrev tileW (c : Dev nD) (t : Fin cfg0.N) : S1024x512.Idx → EReal := iblk m c 1 t
abbrev tileB (c : Dev nD) (t : Fin cfg0.N) : S1x1024.Idx → EReal := iblk m c 2 t

/-- Entry (p, l) of the input tile at point (i, j, k) is `A(2048·i + p, 512·k + l)`. -/
theorem a_entry (c : Dev nD) (t : Fin cfg0.N) (p : Fin 2048) (l : Fin 512) (r : Fin 8192) (k : Fin 4096)
    (hr : r.val = 2048 * (t.val / 32) + p.val) (hk : k.val = 512 * (t.val % 8) + l.val) :
    tileA m c t (ix2 p l) = argA m c (ix2 r k) :=
  (a_block m c t p l r k hr hk).trans (congrFun (input_array m c) (ix2 r k))

/-- Entry (q, l) of the weight tile at point (i, j, k) is `W(1024·j + q, 512·k + l) · M(1024·j + q, 512·k + l)`. -/
theorem w_entry (c : Dev nD) (t : Fin cfg0.N) (q : Fin 1024) (l : Fin 512) (n : Fin 4096) (k : Fin 4096)
    (hn : n.val = 1024 * (t.val / 8 % 4) + q.val) (hk : k.val = 512 * (t.val % 8) + l.val) :
    tileW m c t (ix2 q l) = argW m c (ix2 n k) * argM m c (ix2 n k) :=
  (w_block m c t q l n k hn hk).trans (congrFun (weight_array m c) (ix2 n k))

/-- Entry (0, q) of the bias tile at point (i, j, k) is `b(1024·j + q)`. -/
theorem b_entry (c : Dev nD) (t : Fin cfg0.N) (q : Fin 1024) (n : Fin 4096)
    (hn : n.val = 1024 * (t.val / 8 % 4) + q.val) :
    tileB m c t (ix2 (0 : Fin 1) q) = argB m c (ix1 n) :=
  ((b_block m c t q n hn).trans (congrFun (bias_array m c) (ix2 (0 : Fin 1) n))).trans
    (shapeCast_a_1a_apply _ shapeCasts_S4096_S1x4096 (0 : Fin 1) n)

end Cert.KernelIdeal.Blocks

end
-- ==== Proof.Spec.lean ====
/-
  The function both programs compute, on the extended reals: a linear layer whose weight is masked entry by entry,

      out(r, c) = ( Σ_{l < 4096} A(r, l) · (W(c, l) · M(c, l)) ) + b(c)         r < 8192,  c < 4096

  — row `r` of the input against row `c` of the masked weight, plus the bias of output column `c`.
-/
import Idealize.ShloMosaic.PureOps.Ideal
import Idealize.ShloMosaic.Lib.ValueIdx

noncomputable section

open scoped BigOperators

namespace Cert.MaskedLinear

open Idealize.ShloMosaic Idealize.ShloMosaic.ValueIdx

/-- One entry of the result: the inner product of row `r` of `A` with row `c` of the masked weight, plus the bias. -/
def entry (A : (⟨2, ![8192, 4096]⟩ : Shape).Idx → EReal) (W Mk : (⟨2, ![4096, 4096]⟩ : Shape).Idx → EReal)
    (b : (⟨1, ![4096]⟩ : Shape).Idx → EReal) (r : Fin 8192) (c : Fin 4096) : EReal :=
  (∑ l : Fin 4096, A (ix2 r l) * (W (ix2 c l) * Mk (ix2 c l))) + b (ix1 c)

/-- The whole [8192, 4096] result. -/
def result (A : (⟨2, ![8192, 4096]⟩ : Shape).Idx → EReal) (W Mk : (⟨2, ![4096, 4096]⟩ : Shape).Idx → EReal)
    (b : (⟨1, ![4096]⟩ : Shape).Idx → EReal) : (⟨2, ![8192, 4096]⟩ : Shape).Idx → EReal :=
  fun i => entry A W Mk b (i 0) (i 1)

theorem result_apply (A : (⟨2, ![8192, 4096]⟩ : Shape).Idx → EReal) (W Mk : (⟨2, ![4096, 4096]⟩ : Shape).Idx → EReal)
    (b : (⟨1, ![4096]⟩ : Shape).Idx → EReal) (r : Fin 8192) (c : Fin 4096) :
    result A W Mk b (ix2 r c) = entry A W Mk b r c := rfl

end Cert.MaskedLinear

end
-- ==== Proof.BlockSum.lean ====
/-
  A sum over `h * c` positions, cut into `h` consecutive blocks of `c` positions, is the sum over the blocks of the
  sums inside each block: position `c · a + b` is position `b` of block `a`. Stated in any additive commutative
  monoid, so it holds on the extended reals, where a sum may be regrouped and reordered freely (only cancelling and
  distributing need finiteness there, and neither is used).
-/
import Mathlib.Algebra.BigOperators.Fin
import Mathlib.Logic.Equiv.Fin.Basic

open scoped BigOperators

namespace Cert.BlockSum

/-- The sum over `h * c` positions as the double sum over `h` blocks of `c` positions. -/
theorem sum_blocks {M : Type*} [AddCommMonoid M] (h c : ℕ) (f : Fin (h * c) → M) :
    ∑ l : Fin (h * c), f l = ∑ a : Fin h, ∑ b : Fin c, f (finProdFinEquiv (a, b)) := by
  rw [← finProdFinEquiv.sum_comp, Fintype.sum_prod_type]

/-- Position `b` of block `a` is position `b + c · a`. -/
theorem pos_val {h c : ℕ} (a : Fin h) (b : Fin c) : ((finProdFinEquiv (a, b) : Fin (h * c)) : ℕ) = b.val + c * a.val := rfl

end Cert.BlockSum
-- ==== Proof.TileValue.lean ====
/-
  What the kernel's result array holds after the launch, on the extended reals.

  Each [2048, 1024] output tile (i, j) is computed in eight reduction steps k = 0 … 7, consecutive grid points
  8g … 8g + 7 with g = 4·i + j. An accumulator carried from step to step starts at zero and gains, at step k, the
  product of the input tile (i, k) with the transposed weight tile (j, k): at entry (p, q)

      Σ_{l < 512} A(2048·i + p, 512·k + l) · (W·M)(1024·j + q, 512·k + l).

  At the last step the bias row is added and the tile is written back. So the entry written at (r, n) is

      ( 0 + Σ_{k < 8} Σ_{l < 512} A(r, 512·k + l) · (W·M)(n, 512·k + l) ) + b(n),

  and the double sum is the sum over all 4096 positions: a sum over 8 · 512 positions regrouped into 8 blocks, which
  needs only that addition on the extended reals is associative and commutative — no entry has to be finite.
  Every entry of the result lies in exactly one tile, and each tile is written back by its last step, so the array
  ends holding the masked linear layer of the four arguments.
-/
import proofs.«124118_j6914897347207_2_alg».proof.Proof.Gen.KernelIdeal.Value
import proofs.«124118_j6914897347207_2_alg».proof.Proof.Pieces
import proofs.«124118_j6914897347207_2_alg».proof.Proof.Payload
import proofs.«124118_j6914897347207_2_alg».proof.Proof.Blocks
import proofs.«124118_j6914897347207_2_alg».proof.Proof.Spec
import proofs.«124118_j6914897347207_2_alg».proof.Proof.BlockSum
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.TileValue

open Cert.KernelIdeal Cert.KernelIdeal.Gen Idealize.ShloMosaic.ValueIdx

variable (m : (ℓ : Loc nD τ sig) → Buf (Elt Ideal) ℓ) (ρ : Dev nD → PrngReg)

/-- What reduction step `n` (a grid point) adds to entry `i` of its output tile: the inner product of the input tile's
    row with the weight tile's row. (Past the grid: nothing; those values are never used.) -/
def addend (c : Dev nD) (n : ℕ) (i : S2048x1024.Idx) : EReal :=
  if h : n < cfg0.N then
    ∑ l : Fin 512, Blocks.tileA m c ⟨n, h⟩ (ix2 (i 0) l) * Blocks.tileW m c ⟨n, h⟩ (ix2 (i 1) l)
  else 0

theorem addend_apply (c : Dev nD) (t : Fin cfg0.N) (p : Fin 2048) (q : Fin 1024) :
    addend m c t.val (ix2 p q)
      = ∑ l : Fin 512, Blocks.tileA m c t (ix2 p l) * Blocks.tileW m c t (ix2 q l) := by
  unfold addend
  rw [dif_pos t.isLt]

/-- The first step of a tile leaves `0 + addend`. -/
theorem first_step (c : Dev nD) (n : ℕ) (h : n < cfg0.N) (h0 : n % 8 = 0) (acc : Vec Ideal S2048x1024 .f32) (i : S2048x1024.Idx) :
    Value.scAt0_0 m c n h acc i = 0 + addend m c n i := by
  have h7 : ¬ n % 8 = 7 := by omega
  obtain ⟨p, q, rfl⟩ : ∃ (p : Fin 2048) (q : Fin 1024), i = ix2 p q := ⟨i 0, i 1, eq_ix2 i⟩
  unfold Value.scAt0_0
  rw [dif_pos h0, dif_neg h7, Pieces.acc_first]
  refine (Payload.step_apply _ (Blocks.tileA m c ⟨n, h⟩) (Blocks.tileW m c ⟨n, h⟩) p q).trans ?_
  rw [Payload.reset_apply]
  exact congrArg _ (addend_apply m c ⟨n, h⟩ p q).symm

/-- A middle step leaves `acc + addend`. -/
theorem middle_step (c : Dev nD) (n : ℕ) (h : n < cfg0.N) (h0 : ¬ n % 8 = 0) (h7 : ¬ n % 8 = 7) (acc : Vec Ideal S2048x1024 .f32) (i : S2048x1024.Idx) :
    Value.scAt0_0 m c n h acc i = acc i + addend m c n i := by
  obtain ⟨p, q, rfl⟩ : ∃ (p : Fin 2048) (q : Fin 1024), i = ix2 p q := ⟨i 0, i 1, eq_ix2 i⟩
  unfold Value.scAt0_0
  rw [dif_neg h0, dif_neg h7, Pieces.acc_middle]
  refine (Payload.step_apply acc (Blocks.tileA m c ⟨n, h⟩) (Blocks.tileW m c ⟨n, h⟩) p q).trans ?_
  exact congrArg _ (addend_apply m c ⟨n, h⟩ p q).symm

/-- The accumulator after a step that is not a tile's last: zero plus the addends of the tile's steps so far. -/
theorem acc_after (c : Dev nD) (t : Fin cfg0.N) (h6 : t.val % 8 ≤ 6) (i : S2048x1024.Idx) :
    (outsAt0 m c t.val t.isLt).2 i = 0 + ∑ s ∈ Finset.range (t.val % 8 + 1), addend m c (8 * (t.val / 8) + s) i := by
  rw [Value.soutsAt0_0_eq m c t]
  exact Pipeline.accAt_add_apply _ _ (fun _ => 0) (addend m c) (8 * (t.val / 8)) 6
    (fun h i => first_step m c _ h (by omega) _ i)
    (fun n h acc i hb he => middle_step m c n h (by omega) (by omega) acc i)
    (t.val % 8) h6 _ i

/-- What the result array should hold: the masked linear layer of the four arguments. -/
abbrev out (c : Dev nD) : Buf (Elt Ideal) ((c : Thread nD τ).loc main_v4) :=
  Cert.MaskedLinear.result (Blocks.argA m c) (Blocks.argW m c) (Blocks.argM m c) (Blocks.argB m c)

/-- The eight steps of one tile together contribute the whole inner product: step `s` covers positions
    512·s … 512·s + 511 of the 4096, and a sum over 8 · 512 positions is the sum over the 8 blocks. -/
theorem tile_sum (c : Dev nD) (t : Fin cfg0.N) (p : Fin 2048) (q : Fin 1024) (r : Fin 8192) (n : Fin 4096)
    (hr : r.val = 2048 * (t.val / 32) + p.val) (hn : n.val = 1024 * (t.val / 8 % 4) + q.val) :
    ∑ s ∈ Finset.range 8, addend m c (8 * (t.val / 8) + s) (ix2 p q)
      = ∑ l : Fin 4096, Blocks.argA m c (ix2 r l) * (Blocks.argW m c (ix2 n l) * Blocks.argM m c (ix2 n l)) := by
  have hN : cfg0.N = 128 := N_0
  have ht := t.isLt
  rw [Finset.sum_range]
  refine Eq.trans ?_ (Cert.BlockSum.sum_blocks 8 512 (fun l : Fin 4096 => Blocks.argA m c (ix2 r l) * (Blocks.argW m c (ix2 n l) * Blocks.argM m c (ix2 n l)))).symm
  refine Finset.sum_congr rfl fun s _ => ?_
  have hs := s.isLt
  have hlt : 8 * (t.val / 8) + s.val < cfg0.N := by omega
  refine (addend_apply m c ⟨8 * (t.val / 8) + s.val, hlt⟩ p q).trans ?_
  refine Finset.sum_congr rfl fun l _ => ?_
  have hl := l.isLt
  have hk : ((finProdFinEquiv (s, l) : Fin (8 * 512)) : ℕ) = 512 * ((8 * (t.val / 8) + s.val) % 8) + l.val := by
    rw [Cert.BlockSum.pos_val]; omega
  exact congrArg₂ (· * ·)
    (Blocks.a_entry m c ⟨8 * (t.val / 8) + s.val, hlt⟩ p l r (finProdFinEquiv (s, l))
      (by show r.val = 2048 * ((8 * (t.val / 8) + s.val) / 32) + p.val; omega) hk)
    (Blocks.w_entry m c ⟨8 * (t.val / 8) + s.val, hlt⟩ q l n (finProdFinEquiv (s, l))
      (by show n.val = 1024 * ((8 * (t.val / 8) + s.val) / 8 % 4) + q.val; omega) hk)

/-- What a tile's last step writes back is the tile of the masked linear layer. -/
theorem flushed_eq (c : Dev nD) (t : Fin cfg0.N) (hf : (cfg0.win 3).flush t = true) :
    (dats m 0 c).flushed 3 t = ((cfg0.win 3).blk t).view.read (Elt Ideal) (out m c) := by
  have hN : cfg0.N = 128 := N_0
  have ht := t.isLt
  have h7 : t.val % 8 = 7 := (flush0_3 t).mp hf
  have h0 : ¬ t.val % 8 = 0 := by omega
  rw [Value.flushed3_C m c t h0 h7, Pieces.out_last]
  funext j
  obtain ⟨p, q, rfl⟩ : ∃ (p : Fin 2048) (q : Fin 1024), j = ix2 p q := ⟨j 0, j 1, eq_ix2 j⟩
  have hp := p.isLt
  have hq := q.isLt
  have hrlt : 2048 * (t.val / 32) + p.val < 8192 := by omega
  have hnlt : 1024 * (t.val / 8 % 4) + q.val < 4096 := by omega
  have hprev : t.val - 1 < cfg0.N := by omega
  show k0_pay3 (k0_pay2 ((outsAt0 m c (t.val - 1) hprev).2) (Blocks.tileA m c t) (Blocks.tileW m c t)) (Blocks.tileB m c t) (ix2 p q)
      = out m c (((cfg0.win 3).blk t).view.emb (ix2 p q))
  rw [Blocks.out_entry t p q ⟨_, hrlt⟩ ⟨_, hnlt⟩ rfl rfl]
  refine (Payload.bias_apply _ (Blocks.tileB m c t) p q).trans ?_
  refine (congrArg (· + _) (Payload.step_apply _ (Blocks.tileA m c t) (Blocks.tileW m c t) p q)).trans ?_
  have e1 : (t.val - 1) % 8 + 1 = 7 := by omega
  have e2 : (t.val - 1) / 8 = t.val / 8 := by omega
  have e3 : t.val = 8 * (t.val / 8) + 7 := by omega
  have hacc : (outsAt0 m c (t.val - 1) hprev).2 (ix2 p q)
      = 0 + ∑ s ∈ Finset.range ((t.val - 1) % 8 + 1), addend m c (8 * ((t.val - 1) / 8) + s) (ix2 p q) :=
    acc_after m c ⟨t.val - 1, hprev⟩ (by show (t.val - 1) % 8 ≤ 6; omega) (ix2 p q)
  rw [e1, e2] at hacc
  have hlast : ∑ l : Fin 512, Blocks.tileA m c t (ix2 p l) * Blocks.tileW m c t (ix2 q l)
      = addend m c (8 * (t.val / 8) + 7) (ix2 p q) :=
    (addend_apply m c t p q).symm.trans (congrArg (fun n => addend m c n (ix2 p q)) e3)
  rw [hacc, hlast, add_assoc (0 : EReal), ← Finset.sum_range_succ (fun s => addend m c (8 * (t.val / 8) + s) (ix2 p q)) 7, zero_add,
    tile_sum m c t p q ⟨_, hrlt⟩ ⟨_, hnlt⟩ rfl rfl, Blocks.b_entry m c t q ⟨_, hnlt⟩ rfl]
  rfl

/-- An entry of the result lies in point `t`'s output tile iff each coordinate lies in the tile's range. -/
theorem mem_tile (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v4).slice (win0_3.rect t)).set ↔ _
  rw [View.set_slice_whole, Rect.mem_set_unit]
  exact Iff.rfl

/-- Every entry (r, n) of the result is written back by the last step of its tile, point (r / 2048, n / 1024, 7). -/
theorem cover (i : S8192x4096.Idx) : ∃ t : Fin cfg0.N, (cfg0.win 3).flush t = true ∧ i ∈ ((cfg0.win 3).blk t).view.set := by
  have hN : cfg0.N = 128 := N_0
  have h0 : (i 0).val < 8192 := (i 0).isLt
  have h1 : (i 1).val < 4096 := (i 1).isLt
  have hlt : 32 * ((i 0).val / 2048) + 8 * ((i 1).val / 1024) + 7 < cfg0.N := by omega
  refine ⟨⟨32 * ((i 0).val / 2048) + 8 * ((i 1).val / 1024) + 7, hlt⟩, (flush0_3 _).mpr (by
    show (32 * ((i 0).val / 2048) + 8 * ((i 1).val / 1024) + 7) % 8 = 7; omega), ?_⟩
  rw [mem_tile]
  obtain ⟨-, -, -, -, -, -, e0, e1⟩ := Blocks.index_facts ⟨32 * ((i 0).val / 2048) + 8 * ((i 1).val / 1024) + 7, hlt⟩
  have e0' : win0_3.index ⟨32 * ((i 0).val / 2048) + 8 * ((i 1).val / 1024) + 7, hlt⟩ (0 : Fin 2)
      = (32 * ((i 0).val / 2048) + 8 * ((i 1).val / 1024) + 7) / 32 := e0
  have e1' : win0_3.index ⟨32 * ((i 0).val / 2048) + 8 * ((i 1).val / 1024) + 7, hlt⟩ (1 : Fin 2)
      = (32 * ((i 0).val / 2048) + 8 * ((i 1).val / 1024) + 7) / 8 % 4 := e1
  intro a
  match a with
  | ⟨0, _⟩ =>
    show win0_3.index _ (0 : Fin 2) * 2048 ≤ (i 0).val ∧ (i 0).val < win0_3.index _ (0 : Fin 2) * 2048 + 2048
    rw [e0']; omega
  | ⟨1, _⟩ =>
    show win0_3.index _ (1 : Fin 2) * 1024 ≤ (i 1).val ∧ (i 1).val < win0_3.index _ (1 : Fin 2) * 1024 + 1024
    rw [e1']; omega

/-- So the result array ends holding the masked linear layer of the arguments. -/
theorem final (c : Dev nD) : (dats m 0 c).arrAt 3 cfg0.N = out m c :=
  (dats m 0 c).arrAt_eq_of_cover 3 (out m c) (flushed_eq m c) cover

/-- The kernel's run: every execution ends with the result at the masked linear layer, the arguments unchanged. -/
theorem run : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.TileValue
end
-- ==== Proof.Reference.lean ====
/-
  The reference computes the masked linear layer directly: it multiplies the weight by the mask entry by entry, contracts
  the input's columns with the masked weight's columns in one product — on the extended reals the sum over all 4096
  positions —, and adds the bias, broadcast over the rows. Read at entry (r, c) that is the specification's entry.
-/
import proofs.«124118_j6914897347207_2_alg».proof.Proof.Gen.ReferenceIdeal.Read
import proofs.«124118_j6914897347207_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The reference's result, as a function of the four arguments, is the specification. -/
theorem reference_eq (x0 : (⟨S8192x4096, .f32⟩ : BufTy).Contents (Elt Ideal)) (x1 x3 : (⟨S4096x4096, .f32⟩ : BufTy).Contents (Elt Ideal))
    (x2 : (⟨S4096, .f32⟩ : BufTy).Contents (Elt Ideal)) :
    val_main_v4 (F := Ideal) x0 x1 x2 x3 = Cert.MaskedLinear.result x0 x1 x3 x2 := by
  funext i
  obtain ⟨r, c, rfl⟩ : ∃ (r : Fin 8192) (c : Fin 4096), i = ix2 r c := ⟨i 0, i 1, eq_ix2 i⟩
  -- the product reads row `r` of the input and row `c` of the masked weight; the two broadcasts read the bias at `c`
  have el : ∀ k : Fin 4096, lidx_main_v1 (ix2 r c) k = ix2 r k := fun k => funext fun a => Fin.ext (by
    match a with | ⟨0, _⟩ => rfl | ⟨1, _⟩ => rfl)
  have er : ∀ k : Fin 4096, ridx_main_v1 (ix2 r c) k = ix2 c k := fun k => funext fun a => Fin.ext (by
    match a with | ⟨0, _⟩ => rfl | ⟨1, _⟩ => rfl)
  have eb : idx_main_v2 (idx_main_v3 (ix2 r c)) = ix1 c := funext fun a => Fin.ext (by
    match a with | ⟨0, _⟩ => rfl)
  rw [val_main_v4_apply, val_main_v1_apply, val_main_v3_apply, val_main_v2_apply, Cert.MaskedLinear.result_apply]
  simp only [val_main_v0_apply, el, er, eb]
  rfl

end Cert.ReferenceIdeal.RefValue

end
-- ==== Proof.lean ====
/-
  A linear layer with an entry-wise masked weight,  out = A · (W ∘ M)ᵀ + b,  over f32[8192, 4096] inputs and a
  [4096, 4096] weight and mask.

  The kernel forms `W ∘ M` on the host, tiles the product into [2048, 1024] output tiles, and accumulates each tile over
  eight blocks of 512 contracted positions, adding the bias at the last block. The reference contracts all 4096
  positions at once and adds the bias. On the extended reals both are, at entry (r, c),

      ( Σ_{l < 4096} A(r, l) · (W(c, l) · M(c, l)) ) + b(c) :

  the kernel's eight partial sums are a regrouping of the one sum, and starting the accumulator at zero adds nothing.
  Only associativity and commutativity of addition are used, so the finiteness of the inputs is never opened.

  The three frames are the generated runs; the kernel's idealization rewrote nothing, so `preserves` is trivial; the
  value of the kernel's result array is `TileValue.run`, the reference's `RefValue.reference_eq` over its generated run.
-/
import proofs.«124118_j6914897347207_2_alg».proof.Defs
import proofs.«124118_j6914897347207_2_alg».proof.Proof.Gen.Kernel
import proofs.«124118_j6914897347207_2_alg».proof.Proof.Gen.Kernel.Frame
import proofs.«124118_j6914897347207_2_alg».proof.Proof.Gen.KernelIdeal
import proofs.«124118_j6914897347207_2_alg».proof.Proof.Gen.KernelIdeal.Frame
import proofs.«124118_j6914897347207_2_alg».proof.Proof.Gen.KernelIdeal.Value
import proofs.«124118_j6914897347207_2_alg».proof.Proof.Gen.ReferenceIdeal
import proofs.«124118_j6914897347207_2_alg».proof.Proof.Gen.ReferenceIdeal.Run
import proofs.«124118_j6914897347207_2_alg».proof.Proof.Gen.ReferenceIdeal.Read
import proofs.«124118_j6914897347207_2_alg».proof.Proof.Gen.Pre_finite_inputs
import proofs.«124118_j6914897347207_2_alg».proof.Proof.TileValue
import proofs.«124118_j6914897347207_2_alg».proof.Proof.Reference
import Idealize.ShloMosaic.Adequacy
import Idealize.ShloMosaic.Init

noncomputable section

namespace Cert.Proof

open Idealize.ShloMosaic Idealize.SL.Sem

/-- The kernel as printed runs to completion and leaves its arguments unchanged. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs to completion and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at the masked linear layer of its arguments, and the
    reference's result is the same function of its own. -/
theorem algebraic : Cert.algebraic_KernelIdeal_ReferenceIdeal := by
  intro m ρ m' ρ' _ hagree
  refine ⟨fun c => Cert.KernelIdeal.TileValue.out m c, Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
